-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x512x512 : Shape := ⟨3, ![64, 512, 512]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_

variable [Facts]

def fn {F : FTy → Type} [FloatOps F] (main_arg0 : FVec F S64x2048x512 .f32) (main_arg1 : FVec F S64x512x512 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  main_v8
-- ==== Kernel.lean ====
abbrev S64x2048x512 : Shape := ⟨3, ![64, 2048, 512]⟩
abbrev S64x512x512 : Shape := ⟨3, ![64, 512, 512]⟩
abbrev S64x1x128 : Shape := ⟨3, ![64, 1, 128]⟩
abbrev S2x2048x512 : Shape := ⟨3, ![2, 2048, 512]⟩
abbrev S2x512x512 : Shape := ⟨3, ![2, 512, 512]⟩
abbrev S2x1x128 : Shape := ⟨3, ![2, 1, 128]⟩
abbrev S1x2048x512 : Shape := ⟨3, ![1, 2048, 512]⟩
abbrev S2048x512 : Shape := ⟨2, ![2048, 512]⟩
abbrev S1x512x512 : Shape := ⟨3, ![1, 512, 512]⟩
abbrev S512x512 : Shape := ⟨2, ![512, 512]⟩
abbrev S2048 : Shape := ⟨1, ![2048]⟩
abbrev S2048x1 : Shape := ⟨2, ![2048, 1]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1x128 : Shape := ⟨2, ![1, 128]⟩
abbrev S1x1x128 : Shape := ⟨3, ![1, 1, 128]⟩
abbrev S64x1x1 : Shape := ⟨3, ![64, 1, 1]⟩
abbrev S64 : Shape := ⟨1, ![64]⟩

abbrev nBuf : Space → Nat
  | .hbm => 5
  | .vmem => 6
  | .smem => 0
  | _ => 0

abbrev bufTy : (tb : Table) → Fin (tcTables nBuf tb) → BufTy
  | .hbm, ⟨0, _⟩ => ⟨S64x2048x512, .f32⟩
  | .hbm, ⟨1, _⟩ => ⟨S64x512x512, .f32⟩
  | .hbm, ⟨2, _⟩ => ⟨S64x1x128, .f32⟩
  | .hbm, ⟨3, _⟩ => ⟨S64x1x1, .f32⟩
  | .hbm, ⟨4, _⟩ => ⟨S64, .f32⟩
  | .local _ .vmem, ⟨0, _⟩ => ⟨S2x2048x512, .f32⟩
  | .local _ .vmem, ⟨1, _⟩ => ⟨S2x2048x512, .f32⟩
  | .local _ .vmem, ⟨2, _⟩ => ⟨S2x512x512, .f32⟩
  | .local _ .vmem, ⟨3, _⟩ => ⟨S2x512x512, .f32⟩
  | .local _ .vmem, ⟨4, _⟩ => ⟨S2x1x128, .f32⟩
  | .local _ .vmem, ⟨5, _⟩ => ⟨S2x1x128, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x2048x512_S1x2048x512_0_0_0 : ∀ a, (![0, 0, 0] : Fin 3 → Nat) a + S1x2048x512.size a ≤ S2x2048x512.size a
  h_S1x2048x512 : 0 < S1x2048x512.numel
  shapeCasts_S1x2048x512_S2048x512 : S1x2048x512.ShapeCasts S2048x512
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  reduces_S2048x512_S2048 : S2048x512.Reduces [1] S2048
  shapeCasts_S2048_S2048x1 : S2048.ShapeCasts S2048x1
  reduces_S512x512_S512 : S512x512.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S2048x1_S2048x512 : S2048x1.Broadcasts S2048x512
  broadcasts_S1x512_S2048x512 : S1x512.Broadcasts S2048x512
  reduces_S2048x1_S1 : S2048x1.Reduces [0] S1
  shapeCasts_S1_S1x1 : S1.ShapeCasts S1x1
  reduces_S2048x512_S512 : S2048x512.Reduces [0] S512
  shapeCasts_S512_S1x512 : S512.ShapeCasts S1x512
  reduces_S1x512_S1 : S1x512.Reduces [1] S1
  shapeCasts_S1x1_S1x1 : S1x1.ShapeCasts S1x1
  broadcasts_S1x1_S1x128 : S1x1.Broadcasts S1x128
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  shapeCasts_S1x128_S1x1x128 : S1x128.ShapeCasts S1x1x128
  inb_S2x2048x512_S1x2048x512_1_0_0 : ∀ a, (![1, 0, 0] : Fin 3 → Nat) a + S1x2048x512.size a ≤ S2x2048x512.size a
  inb_S2x512x512_S1x512x512_1_0_0 : ∀ a, (![1, 0, 0] : Fin 3 → Nat) a + S1x512x512.size a ≤ S2x512x512.size a
  inb_S2x1x128_S1x1x128_1_0_0 : ∀ a, (![1, 0, 0] : Fin 3 → Nat) a + S1x1x128.size a ≤ S2x1x128.size a
  slices_S64x1x128_S64x1x1_0_0_0 : S64x1x128.Slices ![0, 0, 0] S64x1x1
  shapeCasts_S64x1x1_S64 : S64x1x1.ShapeCasts S64
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x512.size a ≤ S64x2048x512.size a
  hwx0_0 : ∀ i : grid0.Coords, EltTy.bits .f32 = 32 ∨ (Rect.block (s := S64x2048x512) S2x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S64x512x512.size a
  hwx0_1 : ∀ i : grid0.Coords, EltTy.bits .f32 = 32 ∨ (Rect.block (s := S64x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x128.size a ≤ S64x1x128.size a
  hwx0_2 : ∀ i : grid0.Coords, EltTy.bits .f32 = 32 ∨ (Rect.block (s := S64x1x128) S2x1x128.size (cc0_transform_2 i) (hinb0_2 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S2x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x512x512 : Shape := ⟨3, ![64, 512, 512]⟩
abbrev S_ : Shape := ⟨0, ![]⟩
abbrev S64x2048 : Shape := ⟨2, ![64, 2048]⟩
abbrev S64x2048x1 : Shape := ⟨3, ![64, 2048, 1]⟩
abbrev S64x512 : Shape := ⟨2, ![64, 512]⟩
abbrev S64x512x1 : Shape := ⟨3, ![64, 512, 1]⟩
abbrev S64x1x512 : Shape := ⟨3, ![64, 1, 512]⟩
abbrev S64 : Shape := ⟨1, ![64]⟩

abbrev nBuf : Space → Nat
  | .hbm => 34
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x512x512, .f32⟩
  | .hbm, ⟨2, _⟩ => ⟨S64x2048x512, .f32⟩
  | .hbm, ⟨3, _⟩ => ⟨S_, .f32⟩
  | .hbm, ⟨4, _⟩ => ⟨S64x2048, .f32⟩
  | .hbm, ⟨5, _⟩ => ⟨S64x2048x1, .f32⟩
  | .hbm, ⟨6, _⟩ => ⟨S64x512x512, .f32⟩
  | .hbm, ⟨7, _⟩ => ⟨S_, .f32⟩
  | .hbm, ⟨8, _⟩ => ⟨S64x512, .f32⟩
  | .hbm, ⟨9, _⟩ => ⟨S64x512x1, .f32⟩
  | .hbm, ⟨10, _⟩ => ⟨S64x2048x512, .f32⟩
  | .hbm, ⟨11, _⟩ => ⟨S_, .f32⟩
  | .hbm, ⟨12, _⟩ => ⟨S64x2048x512, .f32⟩
  | .hbm, ⟨13, _⟩ => ⟨S64x2048x512, .f32⟩
  | .hbm, ⟨14, _⟩ => ⟨S64x2048x512, .f32⟩
  | .hbm, ⟨15, _⟩ => ⟨S64x2048x512, .f32⟩
  | .hbm, ⟨16, _⟩ => ⟨S64x1x512, .f32⟩
  | .hbm, ⟨17, _⟩ => ⟨S64x2048x512, .f32⟩
  | .hbm, ⟨18, _⟩ => ⟨S64x2048x512, .f32⟩
  | .hbm, ⟨19, _⟩ => ⟨S_, .f32⟩
  | .hbm, ⟨20, _⟩ => ⟨S64x2048, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64x512, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S64x2048x512_S64x2048_d2 : S64x2048x512.ReducesTo [2] S64x2048
  h_S_ : 0 < S_.numel
  bcast_S64x2048_S64x2048x1_0_1 : S64x2048.BroadcastsInDim S64x2048x1 (![0, 1] : Fin 2 → Fin S64x2048x1.rank)
  reducesTo_S64x512x512_S64x512_d2 : S64x512x512.ReducesTo [2] S64x512
  bcast_S64x512_S64x512x1_0_1 : S64x512.BroadcastsInDim S64x512x1 (![0, 1] : Fin 2 → Fin S64x512x1.rank)
  bcast_S_S64x2048x512 : S_.BroadcastsInDim S64x2048x512 (![] : Fin 0 → Fin S64x2048x512.rank)
  bcast_S64x2048x1_S64x2048x512_0_1_2 : S64x2048x1.BroadcastsInDim S64x2048x512 (![0, 1, 2] : Fin 3 → Fin S64x2048x512.rank)
  transposes_S64x512x1_S64x1x512_0_2_1 : S64x512x1.Transposes [0, 2, 1] S64x1x512
  bcast_S64x1x512_S64x2048x512_0_1_2 : S64x1x512.BroadcastsInDim S64x2048x512 (![0, 1, 2] : Fin 3 → Fin S64x2048x512.rank)
  reducesTo_S64x2048_S64_d1 : S64x2048.ReducesTo [1] S64
  bcast_S_S64 : S_.BroadcastsInDim S64 (![] : Fin 0 → Fin S64.rank)
  reducesTo_S64x2048x512_S64x512_d1 : S64x2048x512.ReducesTo [1] S64x512
  reducesTo_S64x512_S64_d1 : S64x512.ReducesTo [1] S64
  dot_S64x2048x512_S64x512x512_S64x2048x512_2_2_1_1_0_0_wf : DotDims.WF S64x2048x512 S64x512x512 S64x2048x512 [2] [2] [1] [1] [0] [0]

variable [Facts₀]

def dot_S64x2048x512_S64x512x512_S64x2048x512_2_2_1_1_0_0 : DotDims S64x2048x512 S64x512x512 S64x2048x512 where
  lhsContracting := [2]
  rhsContracting := [2]
  lhsNonContracting := [1]
  rhsNonContracting := [1]
  lhsBatch := [0]
  rhsBatch := [0]
  wf := dot_S64x2048x512_S64x512x512_S64x2048x512_2_2_1_1_0_0_wf

class Facts : Prop extends Facts₀ where

variable [Facts]
-- ==== Proof.ChamferSpec.lean ====
/-
  The Chamfer distance between two point clouds, from the table of their pairwise squared distances.

  For a cloud of `a` points and a cloud of `b` points in `n` dimensions, entry `(p, q)` of the table is
  `|V p|² − 2 ⟨V p, L q⟩ + |L q|²`. The distance is the mean over `p` of the smallest entry of row `p` plus the
  mean over `q` of the smallest entry of column `q`. The smallest entry is taken from the word of `+∞`, and the two
  means divide by the words of the two counts; those three words are the same wherever this is used, so they are
  carried as they are and never evaluated.

  The table is assembled in two ways. One takes the inner product of `V p` with `L q` ALREADY SCALED by the word of
  `−2` and adds it; the other takes the plain inner product, scales it by the word of `2` and subtracts it. Moving the
  factor across the sum is the distributive law, which the extended reals do not have at the infinities; where every
  entry of both clouds is a real number both tables are the real table and they agree (`pairScaled_eq_pairPlain`).
-/
import Idealize.ShloMosaic.PureOps.Ideal.Laws
import Idealize.ShloMosaic.Lib.ValueIdx

noncomputable section

open scoped BigOperators

namespace Cert.Chamfer

open Idealize.ShloMosaic Idealize.ShloMosaic.ValueIdx

variable {a b n : ℕ}

/-- The smallest of finitely many extended reals, started from the word of `+∞`. -/
def least {m : ℕ} (f : Fin m → EReal) : EReal :=
  (Finset.univ : Finset (Fin m)).fold min (Ideal.ofBits .f32 0x7F800000#32) f

/-- The two-sided distance of a table: the sum of the rows' smallest entries over the word `ca`, plus the sum of the
    columns' smallest entries over the word `cb`. -/
def total (P : Fin a → Fin b → EReal) (ca cb : EReal) : EReal :=
  Ideal.div (∑ p : Fin a, least fun q => P p q) ca + Ideal.div (∑ q : Fin b, least fun p => P p q) cb

/-- The table with the cross term taken against the second cloud scaled by the word of `−2`. -/
def pairScaled (V : Fin a → Fin n → EReal) (L : Fin b → Fin n → EReal) (p : Fin a) (q : Fin b) : EReal :=
  ((∑ k : Fin n, V p k * V p k) + ∑ k : Fin n, V p k * (L q k * Ideal.ofBits .f32 0xC0000000#32))
    + ∑ k : Fin n, L q k * L q k

/-- The table with the plain cross term scaled by the word of `2` and subtracted. -/
def pairPlain (V : Fin a → Fin n → EReal) (L : Fin b → Fin n → EReal) (p : Fin a) (q : Fin b) : EReal :=
  ((∑ k : Fin n, V p k * V p k) - Ideal.ofBits .f32 0x40000000#32 * ∑ k : Fin n, V p k * L q k)
    + ∑ k : Fin n, L q k * L q k

/-- The word 0xC0000000 denotes the real `−2`. -/
theorem ofBits_neg_two : Ideal.ofBits .f32 0xC0000000#32 = ((-2 : ℝ) : EReal) := by
  simp [Ideal.ofBits, Ideal.ieee, -EReal.coe_mul, -EReal.coe_neg]; norm_num

/-- The word 0x40000000 denotes the real `2`. -/
theorem ofBits_two : Ideal.ofBits .f32 0x40000000#32 = ((2 : ℝ) : EReal) := by
  simp [Ideal.ofBits, Ideal.ieee, -EReal.coe_mul]; norm_num

/-- A finite sum of reals, each read as an extended real, is the real sum read as an extended real. -/
theorem coe_sum {ι : Type*} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-- Over real clouds the two tables are one: `Σ v·(l·(−2)) = −(2·Σ v·l)` in the reals. -/
theorem pairScaled_eq_pairPlain (V : Fin a → Fin n → EReal) (L : Fin b → Fin n → EReal)
    (hV : ∀ p k, ∃ r : ℝ, V p k = (r : EReal)) (hL : ∀ q k, ∃ r : ℝ, L q k = (r : EReal)) :
    pairScaled V L = pairPlain V L := by
  choose V' hV' using hV
  choose L' hL' using hL
  funext p q
  unfold pairScaled pairPlain
  simp only [hV', hL', ofBits_neg_two, ofBits_two, ← EReal.coe_mul, coe_sum, ← EReal.coe_add, ← EReal.coe_sub]
  congr 1
  have e : ∑ k : Fin n, V' p k * (L' q k * (-2)) = -(2 * ∑ k : Fin n, V' p k * L' q k) := by
    rw [Finset.mul_sum, ← Finset.sum_neg_distrib]
    exact Finset.sum_congr rfl fun k _ => by ring
  rw [e]; ring

/-! ## One batch of two stacked clouds

The clouds come stacked along a leading batch axis: `[B, 2048, 512]` and `[B, 512, 512]`. Batch `β`'s distance reads
row `p` of the first stack at `(β, p, ·)` and row `q` of the second at `(β, q, ·)`, and divides by the words of 2048 and
512. -/

/-- Batch `β`'s distance, the cross term taken against the scaled second cloud. -/
def chamferScaled {B : ℕ} (A0 : (⟨3, ![B, 2048, 512]⟩ : Shape).Idx → EReal) (A1 : (⟨3, ![B, 512, 512]⟩ : Shape).Idx → EReal)
    (β : Fin B) : EReal :=
  total (pairScaled (fun (p : Fin 2048) (k : Fin 512) => A0 (ix3 β p k)) (fun (q : Fin 512) (k : Fin 512) => A1 (ix3 β q k)))
    (Ideal.ofBits .f32 0x45000000#32) (Ideal.ofBits .f32 0x44000000#32)

/-- Batch `β`'s distance, the plain cross term scaled and subtracted. -/
def chamferPlain {B : ℕ} (A0 : (⟨3, ![B, 2048, 512]⟩ : Shape).Idx → EReal) (A1 : (⟨3, ![B, 512, 512]⟩ : Shape).Idx → EReal)
    (β : Fin B) : EReal :=
  total (pairPlain (fun (p : Fin 2048) (k : Fin 512) => A0 (ix3 β p k)) (fun (q : Fin 512) (k : Fin 512) => A1 (ix3 β q k)))
    (Ideal.ofBits .f32 0x45000000#32) (Ideal.ofBits .f32 0x44000000#32)

/-- Over stacks of real numbers the two are one. -/
theorem chamferScaled_eq_chamferPlain {B : ℕ} (A0 : (⟨3, ![B, 2048, 512]⟩ : Shape).Idx → EReal)
    (A1 : (⟨3, ![B, 512, 512]⟩ : Shape).Idx → EReal) (h0 : ∀ i, ∃ r : ℝ, A0 i = (r : EReal)) (h1 : ∀ i, ∃ r : ℝ, A1 i = (r : EReal))
    (β : Fin B) : chamferScaled A0 A1 β = chamferPlain A0 A1 β := by
  unfold chamferScaled chamferPlain
  rw [pairScaled_eq_pairPlain _ _ (fun p k => h0 (ix3 β p k)) (fun q k => h1 (ix3 β q k))]

end Cert.Chamfer

end
-- ==== Proof.LibAxisFold.lean ====
/-
  Reductions of a matrix along one axis, read at an index.

  At the ideal instance a float is an extended real and a reduction is the exact fold in any order. For an `[a, b]`
  matrix: the sum of row `p` (a kernel's `vector.multi_reduction <add>` over axis 1) and of column `q` (over axis 0)
  are the sums of that row's, that column's, entries; the smallest entry of row `p` (`<minimumf>` over axis 1) and of
  column `q` (over axis 0) are the fold of `min` from the value of the word of `+∞` over those entries. The index facts
  under them: over row `p` the index with column `k` put back is `(p, k)`, over column `q` the index with row `k` put
  back is `(k, q)`. Each reduction's accumulator is the word a program writes for it (the zero word, the word of `+∞`),
  and the hypothesis about it is the reflexive equation of that word.
-/
import Idealize.ShloMosaic.Lib.IdealHost

namespace Cert.LibAxisFold

open Idealize.ShloMosaic Idealize.ShloMosaic.ValueIdx

variable {a b : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- Over column `q` of an `[a, b]` array, the index whose dropped (row) coordinate is `k` is `(k, q)`. -/
theorem lift_col (h : (⟨2, ![a, b]⟩ : Shape).Reduces [0] ⟨1, ![b]⟩) (q : Fin b) (k : Fin a) :
    h.lift (ix1 q) k = ix2 k q := by
  funext c
  match c with
  | ⟨0, _⟩ => exact Fin.ext rfl
  | ⟨1, _⟩ => exact Fin.ext rfl

/-- A kernel's f32 minimum along the columns started from the word of `+∞`, read at row `p`: the fold of `min` from
    that word's value over the row's entries. -/
theorem laneMin_row (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ v 0x7F800000#32 h hφ hacc (ix1 p)
      = (Finset.univ : Finset (Fin b)).fold min (Ideal.ofBits .f32 0x7F800000#32) fun k => v (ix2 p k) := by
  refine (multiReduction_minimumf_eq_fold v 0x7F800000#32 h hφ hacc (ix1 p)).trans ?_
  refine (h.fold_filter_drop_single _ _ v (ix1 p)).trans ?_
  exact congrArg (fun f => Finset.fold min (Ideal.ofBits .f32 0x7F800000#32) f (Finset.univ : Finset (Fin b)))
    (funext fun k => congrArg v (lift_row h p k))

/-- A kernel's f32 minimum down the rows started from the word of `+∞`, read at column `q`: the fold of `min` from
    that word's value over the column's entries. -/
theorem sublaneMin_col (v : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (q : Fin b) :
    multiReduction .minimumf [0] ⟨1, ![b]⟩ v 0x7F800000#32 h hφ hacc (ix1 q)
      = (Finset.univ : Finset (Fin a)).fold min (Ideal.ofBits .f32 0x7F800000#32) fun k => v (ix2 k q) := by
  refine (multiReduction_minimumf_eq_fold v 0x7F800000#32 h hφ hacc (ix1 q)).trans ?_
  refine (h.fold_filter_drop_single _ _ v (ix1 q)).trans ?_
  exact congrArg (fun f => Finset.fold min (Ideal.ofBits .f32 0x7F800000#32) f (Finset.univ : Finset (Fin a)))
    (funext fun k => congrArg v (lift_col h q k))

/-- A kernel's f32 sum along the columns started from the zero word, read at row `p`: the sum of the row's entries. -/
theorem laneSum_row (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- A kernel's f32 sum down the rows started from the zero word, read at column `q`: the sum of the column's entries. -/
theorem sublaneSum_col (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

end Cert.LibAxisFold
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.PayloadValue.lean ====
/-
  What the kernel body stores for one batch of its block, read at an index.

  The body loads one batch's two clouds `x0 : [1, 2048, 512]` and `x1 : [1, 512, 512]`, and stores a `[1, 1, 128]`
  tile every lane of which holds the same number: the Chamfer distance of the table whose entry `(p, q)` is
  `Σ x0(p,·)² + Σ x0(p,·) · (x1(q,·) · (−2)) + Σ x1(q,·)²` — the cross term a matrix product of the first cloud (its
  change of format the identity on extended reals) with the second cloud already scaled by the word of `−2`, into a zero
  accumulator. The row sums, their standing up as a column or lying down as a row, the broadcasts over the table, the two
  minima, the two sums of minima, the two quotients and the broadcast over the 128 lanes are each read at an index by one
  lemma; nothing is evaluated.
-/
import proofs.«181701_j58308476010760_2_alg».proof.Proof.Gen.KernelIdeal.Skeleton
import proofs.«181701_j58308476010760_2_alg».proof.Proof.ChamferSpec
import proofs.«181701_j58308476010760_2_alg».proof.Proof.LibAxisFold
import proofs.«181701_j58308476010760_2_alg».proof.Proof.LibMatmulRows
import proofs.«181701_j58308476010760_2_alg».proof.Proof.LibColumnCast
import proofs.«181701_j58308476010760_2_alg».proof.Proof.LibColBroadcast
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Chamfer
open Cert.LibAxisFold Cert.LibColumnCast Cert.LibColBroadcast Idealize.ShloMosaic.MatmulRows

/-- The matrix product's dimension record: the first cloud `[2048, 512]` against the second `[512, 512]`, both
    contracted along their last axis. -/
abbrev Dot : DotDims S2048x512 S512x512 S2048x512 := dot_S2048x512_S512x512_S2048x512_1_1_0_0_n_n

theorem dot_l0 (i : S2048x512.Idx) (c : Dot.contr.Idx) : (Dot.lhsIdx i c (0 : Fin 2)).val = (i (0 : Fin 2)).val := by
  unfold DotDims.lhsIdx
  rw [dif_neg (show ¬(0 : Fin S2048x512.rank) ∈ Dot.lhsBatch by decide),
    dif_pos (show (0 : Fin S2048x512.rank) ∈ Dot.lhsNonContracting by decide)]
  rfl

theorem dot_l1 (i : S2048x512.Idx) (c : Dot.contr.Idx) : (Dot.lhsIdx i c (1 : Fin 2)).val = (c ⟨0, by decide⟩).val :=
  Dot.lhsIdx_val_of_single rfl i c

theorem dot_r0 (i : S2048x512.Idx) (c : Dot.contr.Idx) : (Dot.rhsIdx i c (0 : Fin 2)).val = (i (1 : Fin 2)).val := by
  unfold DotDims.rhsIdx
  rw [dif_neg (show ¬(0 : Fin S512x512.rank) ∈ Dot.rhsBatch by decide),
    dif_pos (show (0 : Fin S512x512.rank) ∈ Dot.rhsNonContracting by decide)]
  rfl

theorem dot_r1 (i : S2048x512.Idx) (c : Dot.contr.Idx) : (Dot.rhsIdx i c (1 : Fin 2)).val = (c ⟨0, by decide⟩).val :=
  Dot.rhsIdx_val_of_single rfl i c

/-- The product into the zero accumulator at `(p, q)`: row `p` of the left operand against row `q` of the right one. -/
theorem cross_at {φ₁ φ₂ : FTy} (l : FVec Ideal S2048x512 φ₁) (r : FVec Ideal S512x512 φ₂) (p : Fin 2048) (q : Fin 512) :
    matmul Dot none l r (constant S2048x512 .f32 0x00000000#32) (ix2 p q) = ∑ k : Fin 512, l (ix2 p k) * r (ix2 q k) :=
  matmul_zero_rows Dot rfl rfl dot_l0 dot_l1 dot_r0 dot_r1 none l r p q

/-- THE TABLE at `(p, q)`: the first cloud's row sum of squares broadcast along the row, plus the product with the
    second cloud scaled by the word `c`, plus the second cloud's row sum of squares laid down as a row and broadcast
    down the column. -/
theorem table_at (v1 : FVec Ideal S2048x512 .f32) (v3 : FVec Ideal S512x512 .f32) (c : Ideal .f32) (p : Fin 2048) (q : Fin 512) :
    addf (addf
        (broadcastTo S2048x512 (shapeCast S2048x1 (multiReduction .add [1] S2048 (mulf v1 v1) 0x00000000#32 reduces_S2048x512_S2048 (.inl rfl) rfl) shapeCasts_S2048_S2048x1) broadcasts_S2048x1_S2048x512)
        (matmul Dot none (truncf .bf16 v1 bitsLt_bf16_f32) (truncf .bf16 (mulf v3 (broadcast S512x512 c)) bitsLt_bf16_f32) (constant S2048x512 .f32 0x00000000#32)))
      (broadcastTo S2048x512 (transpose S1x512 [1, 0] (shapeCast S512x1 (multiReduction .add [1] S512 (mulf v3 v3) 0x00000000#32 reduces_S512x512_S512 (.inl rfl) rfl) shapeCasts_S512_S512x1) transposes_S512x1_p1_0_S1x512) broadcasts_S1x512_S2048x512)
      (ix2 p q)
    = ((∑ k : Fin 512, v1 (ix2 p k) * v1 (ix2 p k)) + ∑ k : Fin 512, v1 (ix2 p k) * (v3 (ix2 q k) * c))
        + ∑ k : Fin 512, v3 (ix2 q k) * v3 (ix2 q k) := by
  rw [addf_apply, addf_apply, broadcastTo_a1_ab_apply, shapeCast_a_a1_apply, laneSum_row, cross_at,
    broadcastTo_1b_ab_apply, transpose_ix2_apply, shapeCast_a_a1_apply, laneSum_row]
  rfl

/-- THE TWO LEGS AND THE LANES, over any table `T`: the stored tile at any index is the table's two-sided distance. -/
theorem legs_at (T : FVec Ideal S2048x512 .f32) (ca cb : Ideal .f32) (u u' : Fin 1) (j : Fin 128) :
    shapeCast S1x1x128 (broadcastTo S1x128 (shapeCast S1x1
        (addf
          (divf (shapeCast S1x1 (multiReduction .add [0] S1 (shapeCast S2048x1 (multiReduction .minimumf [1] S2048 T 0x7F800000#32 reduces_S2048x512_S2048 (.inl rfl) rfl) shapeCasts_S2048_S2048x1) 0x00000000#32 reduces_S2048x1_S1 (.inl rfl) rfl) shapeCasts_S1_S1x1) (broadcast S1x1 ca))
          (divf (shapeCast S1x1 (multiReduction .add [1] S1 (shapeCast S1x512 (multiReduction .minimumf [0] S512 T 0x7F800000#32 reduces_S2048x512_S512 (.inl rfl) rfl) shapeCasts_S512_S1x512) 0x00000000#32 reduces_S1x512_S1 (.inl rfl) rfl) shapeCasts_S1_S1x1) (broadcast S1x1 cb)))
        shapeCasts_S1x1_S1x1) broadcasts_S1x1_S1x128) shapeCasts_S1x128_S1x1x128 (ix3 u u' j)
    = total (fun p q => T (ix2 p q)) ca cb := by
  rw [shapeCast_ab_1ab_apply, broadcastTo_a1_ab_apply, shapeCast_self, addf_apply, divf_apply, divf_apply,
    broadcast_apply, broadcast_apply, shapeCast_a_a1_apply, shapeCast_a_a1_apply, sublaneSum_col, laneSum_row]
  unfold total least
  refine congrArg₂ (fun s t => Ideal.div s ca + Ideal.div t cb)
    (Finset.sum_congr rfl fun p _ => ?_) (Finset.sum_congr rfl fun q _ => ?_)
  · rw [shapeCast_a_a1_apply, laneMin_row]
  · rw [shapeCast_a_1a_apply, sublaneMin_col]

/-- THE STORED TILE at any of its indices: the Chamfer distance of the batch's table. -/
theorem pay2_at (x0 : Vec Ideal S1x2048x512 .f32) (x1 : Vec Ideal S1x512x512 .f32) (u u' : Fin 1) (j : Fin 128) :
    k0_pay2 (F := Ideal) x0 x1 (ix3 u u' j)
      = total (pairScaled (fun p k => x0 (ix3 (0 : Fin 1) p k)) (fun q k => x1 (ix3 (0 : Fin 1) q k)))
          (Ideal.ofBits .f32 0x45000000#32) (Ideal.ofBits .f32 0x44000000#32) := by
  unfold k0_pay2
  refine (legs_at _ _ _ u u' j).trans ?_
  refine congrArg (fun P => total P (Ideal.ofBits .f32 0x45000000#32) (Ideal.ofBits .f32 0x44000000#32)) ?_
  funext p q
  refine (table_at _ _ _ p q).trans ?_
  unfold pairScaled
  simp only [shapeCast_1ab_ab_apply]
  rfl

/-- The second store's tile is the same function of its own loads. -/
theorem pay1_eq : @k0_pay1 Ideal _ = @k0_pay2 Ideal _ := rfl

end Cert.KernelIdeal.Payload

end
-- ==== Proof.BlockValue.lean ====
/-
  What the kernel body leaves in its output buffer, as one function of its two input blocks.

  A block holds two batches. The body treats them one after the other with the same arithmetic: batch `β` of the block is
  read through the rectangle at offset `(β, 0, 0)`, and its distance is stored, the same number in all 128 lanes, through the
  rectangle at offset `(β, 0, 0)` of the `[2, 1, 128]` output buffer. The two stored rectangles tile the buffer, so the buffer
  at `(β, 0, j)` is batch `β`'s distance.
-/
import proofs.«181701_j58308476010760_2_alg».proof.Proof.Gen.KernelIdeal.Frame
import proofs.«181701_j58308476010760_2_alg».proof.Proof.PayloadValue

set_option maxRecDepth 16384

noncomputable section

namespace Cert.KernelIdeal.Block

open Cert.KernelIdeal Cert.KernelIdeal.Gen Idealize.ShloMosaic Idealize.ShloMosaic.ValueIdx Cert.Chamfer
open Cert.KernelIdeal.Payload

/-- Batch `β` of the first block, read through its rectangle: local `(0, p, k)` is the block's `(β, p, k)`. -/
theorem ld0_at (x0 : Vec Ideal S2x2048x512 .f32) (β : Fin 2) (inb : ∀ a, (![β.val, 0, 0] : Fin 3 → Nat) a + S1x2048x512.size a ≤ S2x2048x512.size a)
    (p : Fin 2048) (k : Fin 512) :
    View.ld x0 (Rect.unit (s := S2x2048x512) ![β.val, 0, 0] S1x2048x512.size inb) (ix3 (0 : Fin 1) p k) = x0 (ix3 β p k) :=
  congrArg x0 (funext fun a => Fin.ext (by
    match a with
    | ⟨0, _⟩ => show β.val + 1 * 0 = β.val; omega
    | ⟨1, _⟩ => show 0 + 1 * p.val = p.val; omega
    | ⟨2, _⟩ => show 0 + 1 * k.val = k.val; omega))

/-- The same for the second block. -/
theorem ld1_at (x1 : Vec Ideal S2x512x512 .f32) (β : Fin 2) (inb : ∀ a, (![β.val, 0, 0] : Fin 3 → Nat) a + S1x512x512.size a ≤ S2x512x512.size a)
    (q : Fin 512) (k : Fin 512) :
    View.ld x1 (Rect.unit (s := S2x512x512) ![β.val, 0, 0] S1x512x512.size inb) (ix3 (0 : Fin 1) q k) = x1 (ix3 β q k) :=
  congrArg x1 (funext fun a => Fin.ext (by
    match a with
    | ⟨0, _⟩ => show β.val + 1 * 0 = β.val; omega
    | ⟨1, _⟩ => show 0 + 1 * q.val = q.val; omega
    | ⟨2, _⟩ => show 0 + 1 * k.val = k.val; omega))

/-- THE OUTPUT BUFFER after the body: at `(β, ·, ·)` batch `β`'s distance. -/
theorem out_at (x0 : Vec Ideal S2x2048x512 .f32) (x1 : Vec Ideal S2x512x512 .f32) (y : S2x1x128.Idx) :
    (out0_2 (F := Ideal) x0 x1 y : EReal) = chamferScaled x0 x1 (⟨(y 0).val, (y 0).isLt⟩ : Fin 2) := by
  unfold out0_2
  refine View.canon_apply_of_pieces (Val := Elt Ideal) (S := S2x1x128) (e := .f32)
    (fun y : S2x1x128.Idx => (chamferScaled x0 x1 (⟨(y 0).val, (y 0).isLt⟩ : Fin 2) : EReal)) _ ?_ y
    (cover0_2 _ _ y)
  intro pc hpc x
  simp only [List.mem_cons, List.mem_nil_iff, or_false] at hpc
  rcases hpc with rfl | rfl
  · obtain ⟨u, u', j, rfl⟩ : ∃ (u : Fin 1) (u' : Fin 1) (j : Fin 128), x = ix3 u u' j := ⟨x 0, x 1, x 2, eq_ix3 x⟩
    show k0_pay1 (F := Ideal) (View.ld x0 r0_3) (View.ld x1 r0_4) (ix3 u u' j) = _
    rw [pay1_eq]
    refine (pay2_at _ _ u u' j).trans ?_
    have hβ : (⟨((r0_5.emb (ix3 u u' j)) 0).val, ((r0_5.emb (ix3 u u' j)) 0).isLt⟩ : Fin 2) = (1 : Fin 2) :=
      Fin.ext (by show 1 + 1 * u.val = 1; omega)
    show _ = chamferScaled x0 x1 (⟨((r0_5.emb (ix3 u u' j)) 0).val, ((r0_5.emb (ix3 u u' j)) 0).isLt⟩ : Fin 2)
    rw [hβ]
    unfold chamferScaled
    exact congrArg₂ (fun V L => total (pairScaled V L) (Ideal.ofBits .f32 0x45000000#32) (Ideal.ofBits .f32 0x44000000#32))
      (funext fun p => funext fun k => ld0_at x0 (1 : Fin 2) _ p k) (funext fun q => funext fun k => ld1_at x1 (1 : Fin 2) _ q k)
  · obtain ⟨u, u', j, rfl⟩ : ∃ (u : Fin 1) (u' : Fin 1) (j : Fin 128), x = ix3 u u' j := ⟨x 0, x 1, x 2, eq_ix3 x⟩
    show k0_pay2 (F := Ideal) (View.ld x0 r0_0) (View.ld x1 r0_1) (ix3 u u' j) = _
    refine (pay2_at _ _ u u' j).trans ?_
    have hβ : (⟨((r0_2.emb (ix3 u u' j)) 0).val, ((r0_2.emb (ix3 u u' j)) 0).isLt⟩ : Fin 2) = (0 : Fin 2) :=
      Fin.ext (by show 0 + 1 * u.val = 0; omega)
    show _ = chamferScaled x0 x1 (⟨((r0_2.emb (ix3 u u' j)) 0).val, ((r0_2.emb (ix3 u u' j)) 0).isLt⟩ : Fin 2)
    rw [hβ]
    unfold chamferScaled
    exact congrArg₂ (fun V L => total (pairScaled V L) (Ideal.ofBits .f32 0x45000000#32) (Ideal.ofBits .f32 0x44000000#32))
      (funext fun p => funext fun k => ld0_at x0 (0 : Fin 2) _ p k) (funext fun q => funext fun k => ld1_at x1 (0 : Fin 2) _ q k)

end Cert.KernelIdeal.Block

end
-- ==== Proof.ArrayValue.lean ====
/-
  The kernel's run, read: what its result holds after every execution.

  The grid has 32 points; point `t` fetches batches `2t` and `2t+1` of both stacks and writes back a `[2, 1, 128]` block
  at rows `2t` and `2t+1` of the `[64, 1, 128]` array. All three index maps send `t` to block `(t, 0, 0)`, so row `β` of
  what a point writes back is batch `β`'s distance of the stacks themselves, and the 32 blocks tile the array: after the
  region the array at `(β, 0, j)` is batch `β`'s distance, in every lane `j`. The two host lines after the region keep
  lane 0 of each row and drop the two unit axes: the result at `β` is the array at `(β, 0, 0)`.
-/
import proofs.«181701_j58308476010760_2_alg».proof.Proof.Gen.KernelIdeal.Frame
import proofs.«181701_j58308476010760_2_alg».proof.Proof.BlockValue
import Idealize.ShloMosaic.Lib.Pipeline.Value
import Idealize.ShloMosaic.Lib.StableHlo.Run
import Idealize.ShloMosaic.Lib.ValueLayout

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.Chamfer
open Idealize.ShloMosaic.Pipeline (Dat)

variable (m : (ℓ : Loc nD τ sig) → Buf (Elt Ideal) ℓ) (ρ : Dev nD → PrngReg)

/-- What the region's array ends holding: at `(β, ·, ·)` batch `β`'s distance of the two stacks. -/
def lanes (A0 : S64x2048x512.Idx → EReal) (A1 : S64x512x512.Idx → EReal) : S64x1x128.Idx → EReal :=
  fun i => chamferScaled A0 A1 (⟨(i 0).val, (i 0).isLt⟩ : Fin 64)

/-- The result: batch `β`'s distance. -/
def result (A0 : S64x2048x512.Idx → EReal) (A1 : S64x512x512.Idx → EReal) : S64.Idx → EReal :=
  fun i => chamferScaled A0 A1 (⟨(i 0).val, (i 0).isLt⟩ : Fin 64)

/-- The printed index maps, decided over the grid: the three windows move together along the batch axis and stay at
    block 0 on the others. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 31 :=
  (by decide +kernel : ∀ t : Fin grid0.N, _)

/-- Every pair of rows is SOME point's block. -/
theorem idx_onto : ∀ q0 : Fin 32, ∃ t : Fin cfg0.N, win0_2.index t = ![q0.val, 0, 0] :=
  (by decide +kernel : ∀ q0 : Fin 32, ∃ t : Fin grid0.N, win0_2.index t = ![q0.val, 0, 0])

/-- The first stack's block at point `t`, read at `(β, p, k)`: the stack at `(2·index + β, p, k)`. -/
theorem blk0_at (c : Dev nD) (t : Fin cfg0.N) (β : Fin 2) (p : Fin 2048) (k : Fin 512) (b : Fin 64)
    (hb : b.val = win0_2.index t (0 : Fin 3) * 2 + 1 * β.val) :
    iblk m c 0 t (ix3 β p k) = V m c main_arg0 (ix3 b p k) := by
  obtain ⟨e0, e1, e2, e3, e4, e5, e6, e7, e8⟩ := idx_facts t
  show V m c main_arg0 (((cfg0.win 0).blk t).view.emb (ix3 β p k)) = V m c main_arg0 (ix3 b p k)
  refine congrArg (V m c main_arg0) (funext fun a => Fin.ext ?_)
  match a with
  | ⟨0, _⟩ => show win0_0.index t (0 : Fin 3) * 2 + 1 * β.val = b.val; omega
  | ⟨1, _⟩ => show win0_0.index t (1 : Fin 3) * 2048 + 1 * p.val = p.val; omega
  | ⟨2, _⟩ => show win0_0.index t (2 : Fin 3) * 512 + 1 * k.val = k.val; omega

/-- The same for the second stack. -/
theorem blk1_at (c : Dev nD) (t : Fin cfg0.N) (β : Fin 2) (q : Fin 512) (k : Fin 512) (b : Fin 64)
    (hb : b.val = win0_2.index t (0 : Fin 3) * 2 + 1 * β.val) :
    iblk m c 1 t (ix3 β q k) = V m c main_arg1 (ix3 b q k) := by
  obtain ⟨e0, e1, e2, e3, e4, e5, e6, e7, e8⟩ := idx_facts t
  show V m c main_arg1 (((cfg0.win 1).blk t).view.emb (ix3 β q k)) = V m c main_arg1 (ix3 b q k)
  refine congrArg (V m c main_arg1) (funext fun a => Fin.ext ?_)
  match a with
  | ⟨0, _⟩ => show win0_1.index t (0 : Fin 3) * 2 + 1 * β.val = b.val; omega
  | ⟨1, _⟩ => show win0_1.index t (1 : Fin 3) * 512 + 1 * q.val = q.val; omega
  | ⟨2, _⟩ => show win0_1.index t (2 : Fin 3) * 512 + 1 * k.val = k.val; omega

/-- WHAT POINT `t` WRITES BACK is block `t` of `lanes` of the two stacks as the region finds them. -/
theorem flushed_eq (c : Dev nD) (t : Fin cfg0.N) :
    (dats m 0 c).flushed 2 t = ((cfg0.win 2).blk t).view.read (Elt Ideal) (lanes (V m c main_arg0) (V m c main_arg1)) := by
  show (cfg0.win 2).cut (grid0.coords t) ((dats m 0 c).after 2 t) = _
  rw [after0_2]
  funext y
  show (out0_2 (iblk m c 0 t) (iblk m c 1 t) y : EReal) = lanes (V m c main_arg0) (V m c main_arg1) (((cfg0.win 2).blk t).view.emb y)
  refine (Block.out_at _ _ y).trans ?_
  unfold lanes chamferScaled
  have hb : ((⟨((((cfg0.win 2).blk t).view.emb y) 0).val, ((((cfg0.win 2).blk t).view.emb y) 0).isLt⟩ : Fin 64)).val
      = win0_2.index t (0 : Fin 3) * 2 + 1 * ((⟨(y 0).val, (y 0).isLt⟩ : Fin 2)).val := rfl
  exact congrArg₂ (fun V L => total (pairScaled V L) (Ideal.ofBits .f32 0x45000000#32) (Ideal.ofBits .f32 0x44000000#32))
    (funext fun p => funext fun k => blk0_at m c t _ p k _ hb) (funext fun q => funext fun k => blk1_at m c t _ q k _ hb)

/-- An index of the array is in point `t`'s block iff each coordinate is in the block's range on its axis. -/
theorem mem_blk (t : Fin cfg0.N) (i : S64x1x128.Idx) :
    i ∈ ((cfg0.win 2).blk t).view.set ↔ ∀ a : Fin 3, win0_2.index t a * S2x1x128.size a ≤ (i a).val ∧ (i a).val < win0_2.index t a * S2x1x128.size a + S2x1x128.size a := by
  show i ∈ ((View.whole main_v0).slice (win0_2.rect t)).set ↔ _
  rw [View.set_slice_whole, Rect.mem_set_unit]
  exact Iff.rfl

/-- THE COVER: row `β` lies in the block of the point whose block index is `β / 2`. -/
theorem cover (i : S64x1x128.Idx) : ∃ t : Fin cfg0.N, (cfg0.win 2).flush t = true ∧ i ∈ ((cfg0.win 2).blk t).view.set := by
  have hi0 : (i 0).val < 64 := (i 0).isLt
  have hi1 : (i 1).val < 1 := (i 1).isLt
  have hi2 : (i 2).val < 128 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- THE ARRAY after the region: `lanes` of the two stacks. -/
theorem final (c : Dev nD) : (dats m 0 c).arrAt 2 cfg0.N = lanes (V m c main_arg0) (V m c main_arg1) :=
  (dats m 0 c).arrAt_eq_of_cover 2 (lanes (V m c main_arg0) (V m c main_arg1)) (fun t _ => flushed_eq m c t) cover

/-! ## The two host lines after the region, and the run -/

/-- The result buffer is an unscoped buffer that is no window's array. -/
theorem result_rest : main_v2 ∈ Pipeline.restRefs sig (cfgs 0).spec :=
  Pipeline.mem_restRefs_of main_v2 rfl (fun w => by fin_cases w <;> decide)

/-- THE RESULT after the two host lines: lane 0 of each row of the region's array, the unit axes dropped. -/
theorem tail_eq (c : Dev nD) :
    Pipeline.afterTail₀ cfgs (dats m) 0 (V0 m) [hostOps1] c main_v2 = result (V m c main_arg0) (V m c main_arg1) := by
  unfold Pipeline.afterTail₀
  show StableHlo.after hostOps1 _ (Proc.devRef .tc main_v2) = _
  after_results
  funext i
  obtain ⟨β, rfl⟩ : ∃ β : Fin 64, i = ix1 β := ⟨i 0, eq_ix1 i⟩
  show shapeCast S64 (extractStridedSlice S64x1x1 ![0, 0, 0]
      (Pipeline.withArrays (cfgs 0).spec c (V0 m c) (fun w => (dats m 0 c).arrAt w (cfgs 0).N) (Proc.devRef .tc main_v0))
      slices_S64x1x128_S64x1x1_0_0_0) shapeCasts_S64x1x1_S64 (ix1 β) = _
  rw [shapeCast_apply _ shapeCasts_S64x1x1_S64 (ix1 β) (ix3 β (0 : Fin 1) (0 : Fin 1))
      (by rw [Shape.rowMajor_val_three, Shape.rowMajor_val_one]; show (β.val * 1 + 0) * 1 + 0 = β.val; omega),
    extractStridedSlice_apply _ _ slices_S64x1x128_S64x1x1_0_0_0 (ix3 β (0 : Fin 1) (0 : Fin 1)) (ix3 β (0 : Fin 1) (0 : Fin 128))
      (fun a => by
        match a with
        | ⟨0, _⟩ => show β.val = 0 + β.val; omega
        | ⟨1, _⟩ => rfl
        | ⟨2, _⟩ => rfl)]
  have hA : Pipeline.withArrays (cfgs 0).spec c (V0 m c) (fun w => (dats m 0 c).arrAt w (cfgs 0).N) (Proc.devRef .tc main_v0)
      = lanes (V m c main_arg0) (V m c main_arg1) :=
    (Pipeline.withArrays_arr spec0 launch0.win.arr_inj c _ _ 2).trans (final m c)
  rw [hA]
  rfl

/-- THE RUN, READ: every weakly fair execution of the kernel's program terminates with the result at `result` of the
    two stacks as launched, and the stacks unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrayValue

end
-- ==== Proof.RefValue.lean ====
/-
  The reference's result, read at a batch.

  The reference forms, for all batches at once, the two stacks' row sums of squares, the batched inner products, the
  table `(a − 2 · ab) + bᵀ`, its minima along each of its two axes, the sums of those minima, the two quotients and their
  sum. Each operation but the two minima is read at an index by the generated stage lemmas; a minimum along an axis is
  the fold of `min` from the word of `+∞` over that axis's coordinates. Batch `β` of the result is the plain-assembly
  distance of batch `β` of the two stacks; the zero words the sums start from are the extended real zero.
-/
import proofs.«181701_j58308476010760_2_alg».proof.Proof.Gen.ReferenceIdeal.Read
import proofs.«181701_j58308476010760_2_alg».proof.Proof.ChamferSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Chamfer

/-- THE TABLE at `(β, p, q)`. -/
theorem table_at (x0 : FVec Ideal S64x2048x512 .f32) (x1 : FVec Ideal S64x512x512 .f32) (β : Fin 64) (p : Fin 2048) (q : Fin 512) :
    val_main_v13 (F := Ideal) x0 x1 (ix3 β p q)
      = pairPlain (fun (p : Fin 2048) (k : Fin 512) => x0 (ix3 β p k)) (fun (q : Fin 512) (k : Fin 512) => x1 (ix3 β q k)) p q := by
  have e1 : ∀ k : Fin 512, idx_main_v1 (idx_main_v2 (idx_main_v9 (ix3 β p q))) k = ix3 β p k := fun k =>
    funext fun a => Fin.ext (by match a with | ⟨0, _⟩ => rfl | ⟨1, _⟩ => rfl | ⟨2, _⟩ => rfl)
  have e2 : ∀ k : Fin 512, lidx_main_v6 (ix3 β p q) k = ix3 β p k := fun k =>
    funext fun a => Fin.ext (by match a with | ⟨0, _⟩ => rfl | ⟨1, _⟩ => rfl | ⟨2, _⟩ => rfl)
  have e3 : ∀ k : Fin 512, ridx_main_v6 (ix3 β p q) k = ix3 β q k := fun k =>
    funext fun a => Fin.ext (by match a with | ⟨0, _⟩ => rfl | ⟨1, _⟩ => rfl | ⟨2, _⟩ => rfl)
  have e4 : ∀ k : Fin 512, idx_main_v4 (idx_main_v5 (idx_main_v11 (idx_main_v12 (ix3 β p q)))) k = ix3 β q k := fun k =>
    funext fun a => Fin.ext (by match a with | ⟨0, _⟩ => rfl | ⟨1, _⟩ => rfl | ⟨2, _⟩ => rfl)
  rw [val_main_v13_apply, val_main_v10_apply, val_main_v9_apply, val_main_v2_apply, val_main_v1_apply, val_main_v8_apply,
    val_main_v7_apply, val_main_v6_apply, val_main_v12_apply, val_main_v11_apply, val_main_v5_apply, val_main_v4_apply]
  simp only [val_main_v0_apply, val_main_v3_apply, val_main_cst_apply, val_main_cst_0_apply, val_main_cst_1_apply,
    Ideal.addf_def, Ideal.subf_def, Ideal.mulf_def, Ideal.ofBits_def, Ideal.ofBits_zero_f32, zero_add, e1, e2, e3, e4]
  rfl

/-- With the last coordinate `k` put back, the index over `(β, p)` is `(β, p, k)`. -/
theorem lift_last (h : S64x2048x512.Reduces [2] S64x2048) (β : Fin 64) (p : Fin 2048) (k : Fin 512) :
    h.lift (ix2 β p) k = ix3 β p k := by
  funext a
  match a with
  | ⟨0, _⟩ => exact Fin.ext rfl
  | ⟨1, _⟩ => exact Fin.ext rfl
  | ⟨2, _⟩ => exact Fin.ext rfl

/-- With the middle coordinate `k` put back, the index over `(β, q)` is `(β, k, q)`. -/
theorem lift_mid (h : S64x2048x512.Reduces [1] S64x512) (β : Fin 64) (q : Fin 512) (k : Fin 2048) :
    h.lift (ix2 β q) k = ix3 β k q := by
  funext a
  match a with
  | ⟨0, _⟩ => exact Fin.ext rfl
  | ⟨1, _⟩ => exact Fin.ext rfl
  | ⟨2, _⟩ => exact Fin.ext rfl

/-- THE ROW MINIMA at `(β, p)`: the smallest entry of row `p` of batch `β`'s table. -/
theorem rowMin_at (x0 : FVec Ideal S64x2048x512 .f32) (x1 : FVec Ideal S64x512x512 .f32) (β : Fin 64) (p : Fin 2048) :
    val_main_v14 (F := Ideal) x0 x1 (ix2 β p) = least fun q : Fin 512 => val_main_v13 (F := Ideal) x0 x1 (ix3 β p q) := by
  unfold val_main_v14
  have h : S64x2048x512.Reduces [2] S64x2048 := by decide
  rw [Host.reduce_eq_fold_single FloatOps.minimumf _ _ reducesTo_S64x2048x512_S64x2048_d2 h h_S_]
  have hf : (val_main_v13 (F := Ideal) x0 x1 ∘ h.lift (ix2 β p)) = fun k : Fin 512 => val_main_v13 (F := Ideal) x0 x1 (ix3 β p k) :=
    funext fun k => congrArg (val_main_v13 (F := Ideal) x0 x1) (lift_last h β p k)
  exact congrArg (fun f => Finset.fold min (Ideal.ofBits .f32 0x7F800000#32) f (Finset.univ : Finset (Fin 512))) hf

/-- THE COLUMN MINIMA at `(β, q)`: the smallest entry of column `q` of batch `β`'s table. -/
theorem colMin_at (x0 : FVec Ideal S64x2048x512 .f32) (x1 : FVec Ideal S64x512x512 .f32) (β : Fin 64) (q : Fin 512) :
    val_main_v18 (F := Ideal) x0 x1 (ix2 β q) = least fun p : Fin 2048 => val_main_v13 (F := Ideal) x0 x1 (ix3 β p q) := by
  unfold val_main_v18
  have h : S64x2048x512.Reduces [1] S64x512 := by decide
  rw [Host.reduce_eq_fold_single FloatOps.minimumf _ _ reducesTo_S64x2048x512_S64x512_d1 h h_S_]
  have hf : (val_main_v13 (F := Ideal) x0 x1 ∘ h.lift (ix2 β q)) = fun k : Fin 2048 => val_main_v13 (F := Ideal) x0 x1 (ix3 β k q) :=
    funext fun k => congrArg (val_main_v13 (F := Ideal) x0 x1) (lift_mid h β q k)
  exact congrArg (fun f => Finset.fold min (Ideal.ofBits .f32 0x7F800000#32) f (Finset.univ : Finset (Fin 2048))) hf

/-- THE RESULT at batch `β`: the plain-assembly distance of batch `β` of the two stacks. -/
theorem result_at (x0 : FVec Ideal S64x2048x512 .f32) (x1 : FVec Ideal S64x512x512 .f32) (β : Fin 64) :
    val_main_v22 (F := Ideal) x0 x1 (ix1 β) = chamferPlain x0 x1 β := by
  have e15 : ∀ k : Fin 2048, idx_main_v15 (ix1 β) k = ix2 β k := fun k =>
    funext fun a => Fin.ext (by match a with | ⟨0, _⟩ => rfl | ⟨1, _⟩ => rfl)
  have e19 : ∀ k : Fin 512, idx_main_v19 (ix1 β) k = ix2 β k := fun k =>
    funext fun a => Fin.ext (by match a with | ⟨0, _⟩ => rfl | ⟨1, _⟩ => rfl)
  rw [val_main_v22_apply, val_main_v17_apply, val_main_v21_apply, val_main_v15_apply, val_main_v19_apply,
    val_main_v16_apply, val_main_v20_apply]
  simp only [val_main_cst_3_apply, val_main_cst_4_apply, val_main_cst_6_apply, val_main_cst_7_apply, Ideal.addf_def,
    Ideal.hostDivf_def, Ideal.ofBits_def, Ideal.ofBits_zero_f32, zero_add, e15, e19]
  unfold chamferPlain total
  refine congrArg₂ (fun s t => Ideal.div s (Ideal.ofBits .f32 0x45000000#32) + Ideal.div t (Ideal.ofBits .f32 0x44000000#32))
    (Finset.sum_congr rfl fun p _ => ?_) (Finset.sum_congr rfl fun q _ => ?_)
  · rw [rowMin_at]
    exact congrArg least (funext fun q => table_at x0 x1 β p q)
  · rw [colMin_at]
    exact congrArg least (funext fun p => table_at x0 x1 β p q)

end Cert.ReferenceIdeal.RefValue

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.FiniteInputs.lean ====
/-
  The precondition read back: every entry of both stacks is a real number.

  The printed test is the conjunction, over the two stacks, of "every entry's absolute value is below `+∞`", each an
  `and`-reduction over all axes of the entrywise comparison. Its value 1 gives 1 for both conjuncts, each conjunct 1
  gives the comparison 1 at every entry, and an extended real whose absolute value is below `+∞` is a real.
-/
import proofs.«181701_j58308476010760_2_alg».proof.Proof.Gen.Pre_finite_inputs
import proofs.«181701_j58308476010760_2_alg».proof.Proof.LibFinite
import Idealize.ShloMosaic.Lib.ReduceAll
import Idealize.ShloMosaic.Lib.ValueIdx

noncomputable section

namespace Cert.FiniteInputs

open Idealize.ShloMosaic Idealize.ShloMosaic.ValueIdx Cert.Lib.Finite Cert.Pre_finite_inputs Cert.Pre_finite_inputs.Gen

/-- If the printed test of two stacks is 1, every entry of both is a real number. -/
theorem real_of_pre (A0 : FVec Ideal S64x2048x512 .f32) (A1 : FVec Ideal S64x512x512 .f32)
    (h : Cert.Pre_finite_inputs.fn (F := Ideal) A0 A1 = fun _ => 1#1) :
    (∀ i, ∃ r : ℝ, A0 i = (r : EReal)) ∧ (∀ i, ∃ r : ℝ, A1 i = (r : EReal)) := by
  have h0 := congrFun h ix0
  dsimp only [Cert.Pre_finite_inputs.fn] at h0
  obtain ⟨ha, hb⟩ := IntOp.andi_eq_one.1 h0
  exact ⟨fun i => real_of_cmp (A0 i) (Host.reduce_andi_all _ _ _ _ ix0 ha i),
    fun i => real_of_cmp (A1 i) (Host.reduce_andi_all _ _ _ _ ix0 hb i)⟩

end Cert.FiniteInputs

end
-- ==== Proof.lean ====
/-
  The Chamfer distance of 64 pairs of point clouds: a kernel against its reference, over the extended reals.

  Both programs compute, for each batch `β`, from a cloud of 2048 points and a cloud of 512 points in 512 dimensions, the
  table of pairwise squared distances `|v_p|² − 2⟨v_p, l_q⟩ + |l_q|²`, the mean over `p` of the smallest entry of row `p`, the
  mean over `q` of the smallest entry of column `q`, and their sum.

  The kernel handles two batches per grid point. It forms the cross term as ONE matrix product of the first cloud with the
  second cloud ALREADY SCALED by `−2` (its narrowing to a shorter float format is the identity on extended reals), adds the
  two clouds' row sums of squares, takes the two minima, the two means and their sum, and stores that number in all 128
  lanes of one row of a `[64, 1, 128]` array; two host lines then keep lane 0. The reference forms the plain batched inner
  products, scales them by `2` and subtracts. Everything after the table is the same on both sides, word for word (the
  `+∞` the minima start from, the divisors 2048 and 512), so the claim comes down to the two tables being equal:
  `Σ_k v·(l·(−2)) = −(2·Σ_k v·l)`. That moves a factor across a sum, which the extended reals allow only away from the
  infinities — and this is where the precondition is used: every entry of both inputs is a real number, so both tables are
  the real table.

  The modules: `ChamferSpec` (the distance of a table, the two tables, their agreement over reals), `PayloadValue` (what
  the body stores for one batch), `BlockValue` (the body's output buffer from its two input blocks), `ArrayValue` (the
  kernel's run read: the 32 blocks tile the array, the host lines keep lane 0), `RefValue` (the reference's result at a
  batch), `FiniteInputs` (the precondition read back). The three frames are the generated ones; the idealization rewrote
  nothing, so `preserves` is trivial.
-/
import proofs.«181701_j58308476010760_2_alg».proof.Defs
import proofs.«181701_j58308476010760_2_alg».proof.Proof.Gen.Kernel
import proofs.«181701_j58308476010760_2_alg».proof.Proof.Gen.Kernel.Skeleton
import proofs.«181701_j58308476010760_2_alg».proof.Proof.Gen.Kernel.Launch
import proofs.«181701_j58308476010760_2_alg».proof.Proof.Gen.Kernel.Points
import proofs.«181701_j58308476010760_2_alg».proof.Proof.Gen.Kernel.Frame
import proofs.«181701_j58308476010760_2_alg».proof.Proof.Gen.KernelIdeal
import proofs.«181701_j58308476010760_2_alg».proof.Proof.Gen.KernelIdeal.Skeleton
import proofs.«181701_j58308476010760_2_alg».proof.Proof.Gen.KernelIdeal.Launch
import proofs.«181701_j58308476010760_2_alg».proof.Proof.Gen.KernelIdeal.Points
import proofs.«181701_j58308476010760_2_alg».proof.Proof.Gen.KernelIdeal.Frame
import proofs.«181701_j58308476010760_2_alg».proof.Proof.Gen.ReferenceIdeal
import proofs.«181701_j58308476010760_2_alg».proof.Proof.Gen.Pre_finite_inputs
import proofs.«181701_j58308476010760_2_alg».proof.Proof.Gen.ReferenceIdeal.Run
import proofs.«181701_j58308476010760_2_alg».proof.Proof.Gen.ReferenceIdeal.Read
import proofs.«181701_j58308476010760_2_alg».proof.Proof.ChamferSpec
import proofs.«181701_j58308476010760_2_alg».proof.Proof.ArrayValue
import proofs.«181701_j58308476010760_2_alg».proof.Proof.RefValue
import proofs.«181701_j58308476010760_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx Cert.Chamfer

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with batch `β`'s distance at `β`: the kernel's with the scaled cross term (`ArrayValue.run`), the
    reference's with the plain one (`RefValue.result_at`), equal because the inputs are real (`FiniteInputs.real_of_pre`,
    `chamferScaled_eq_chamferPlain`). -/
theorem algebraic : Cert.algebraic_KernelIdeal_ReferenceIdeal := by
  intro m ρ m' ρ' hpre hagree
  refine ⟨fun c => Cert.KernelIdeal.ArrayValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v22_eq]
  obtain ⟨r0, r1⟩ := Cert.FiniteInputs.real_of_pre _ _ (hpre c)
  funext i
  obtain ⟨β, rfl⟩ : ∃ β : Fin 64, i = ix1 β := ⟨i 0, eq_ix1 i⟩
  rw [Cert.ReferenceIdeal.RefValue.result_at]
  exact (chamferScaled_eq_chamferPlain _ _ r0 r1 β).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
